-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S64x1 : Shape := ⟨2, ![64, 1]⟩
abbrev S64 : Shape := ⟨1, ![64]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S64x1 : S_.BroadcastsInDim S64x1 (![] : Fin 0 → Fin S64x1.rank)
  reducesTo_S64x1_S_d0_1 : S64x1.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S64x1 .f32) (main_arg5 : FVec F S64x1 .f32) (main_arg6 : FVec F S64 .f32) (main_arg7 : FVec F S64 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S64x1 .f32 := Host.absf main_arg4
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S262144x64 .f32) (main_arg1 : FVec F S262144x64 .f32) (main_arg2 : FVec F S64x1 .f32) (main_arg3 : FVec F S64x1 .f32) (main_arg4 : FVec F S64x1 .f32) (main_arg5 : FVec F S64x1 .f32) (main_arg6 : FVec F S64 .f32) (main_arg7 : FVec F S64 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S262144x64 .f32 := Host.absf main_arg1
  let main_cst_0 : FVec F S_ .f32 := constant S_ .f32 0x7F800000#32
  let main_v5 : FVec F S262144x64 .f32 := broadcastInDim S262144x64 ![] bcast_S_S262144x64 main_cst_0
  let main_v6 : IVec S262144x64 1 := cmpf .olt main_v4 main_v5
  let main_c_1 : IVec S_ 1 := constantI S_ 1 1#1
  let main_v7 : IVec S_ 1 := (fun x v => Host.reduce IntOp.andi x v reducesTo_S262144x64_S_d0_1 h_S_) main_v6 main_c_1
  let main_v8 : IVec S_ 1 := andi main_v3 main_v7
  let main_v9 : FVec F S64x1 .f32 := Host.absf main_arg2
  let main_cst_2 : FVec F S_ .f32 := constant S_ .f32 0x7F800000#32
  let main_v10 : FVec F S64x1 .f32 := broadcastInDim S64x1 ![] bcast_S_S64x1 main_cst_2
  let main_v11 : IVec S64x1 1 := cmpf .olt main_v9 main_v10
  let main_c_3 : IVec S_ 1 := constantI S_ 1 1#1
  let main_v12 : IVec S_ 1 := (fun x v => Host.reduce IntOp.andi x v reducesTo_S64x1_S_d0_1 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_arg5 main_arg6 main_arg7 main_v13 main_v16
-- ==== Kernel.lean ====
abbrev S262144x64 : Shape := ⟨2, ![262144, 64]⟩
abbrev S64x1 : Shape := ⟨2, ![64, 1]⟩
abbrev S64 : Shape := ⟨1, ![64]⟩
abbrev S1x64 : Shape := ⟨2, ![1, 64]⟩
abbrev S8192x64 : Shape := ⟨2, ![8192, 64]⟩
abbrev S8192 : Shape := ⟨1, ![8192]⟩
abbrev S8192x1 : Shape := ⟨2, ![8192, 1]⟩

abbrev nBuf : Space → Nat
  | .hbm => 16
  | .vmem => 14
  | .smem => 0
  | _ => 0

abbrev bufTy : (tb : Table) → Fin (tcTables nBuf tb) → BufTy
  | .hbm, ⟨0, _⟩ => ⟨S262144x64, .f32⟩
  | .hbm, ⟨1, _⟩ => ⟨S262144x64, .f32⟩
  | .hbm, ⟨2, _⟩ => ⟨S64x1, .f32⟩
  | .hbm, ⟨3, _⟩ => ⟨S64x1, .f32⟩
  | .hbm, ⟨4, _⟩ => ⟨S64x1, .f32⟩
  | .hbm, ⟨5, _⟩ => ⟨S64x1, .f32⟩
  | .hbm, ⟨6, _⟩ => ⟨S64, .f32⟩
  | .hbm, ⟨7, _⟩ => ⟨S64, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S262144x64, .f32⟩
  | .hbm, ⟨15, _⟩ => ⟨S262144x64, .f32⟩
  | .local _ .vmem, ⟨0, _⟩ => ⟨S8192x64, .f32⟩
  | .local _ .vmem, ⟨1, _⟩ => ⟨S8192x64, .f32⟩
  | .local _ .vmem, ⟨2, _⟩ => ⟨S8192x64, .f32⟩
  | .local _ .vmem, ⟨3, _⟩ => ⟨S8192x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S8192x64, .f32⟩
  | .local _ .vmem, ⟨11, _⟩ => ⟨S8192x64, .f32⟩
  | .local _ .vmem, ⟨12, _⟩ => ⟨S8192x64, .f32⟩
  | .local _ .vmem, ⟨13, _⟩ => ⟨S8192x64, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8192x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8192x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S64x1_S1x64 : S64x1.ShapeCasts S1x64
  shapeCasts_S64_S1x64 : S64.ShapeCasts S1x64
  inb_S8192x64_S8192x64_0_0 : ∀ a, (![0, 0] : Fin 2 → Nat) a + S8192x64.size a ≤ S8192x64.size a
  h_S8192x64 : 0 < S8192x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  reduces_S8192x64_S8192 : S8192x64.Reduces [1] S8192
  shapeCasts_S8192_S8192x1 : S8192.ShapeCasts S8192x1
  broadcasts_S8192x1_S8192x64 : S8192x1.Broadcasts S8192x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S262144x64.size a
  hwx0_0 : ∀ i : grid0.Coords, EltTy.bits .f32 = 32 ∨ (Rect.block (s := S262144x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S262144x64.size a
  hwx0_1 : ∀ i : grid0.Coords, EltTy.bits .f32 = 32 ∨ (Rect.block (s := S262144x64) S8192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8192x64.size a ≤ S262144x64.size a
  hwx0_8 : ∀ i : grid0.Coords, EltTy.bits .f32 = 32 ∨ (Rect.block (s := S262144x64) S8192x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8192x64.size a ≤ S262144x64.size a
  hwx0_9 : ∀ i : grid0.Coords, EltTy.bits .f32 = 32 ∨ (Rect.block (s := S262144x64) S8192x64.size (cc0_transform_9 i) (hinb0_9 i)).WholeWords (EltTy.packing .f32)

variable [Facts₀]

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6_0) S8192x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_1) S8192x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S262144x64 : Shape := ⟨2, ![262144, 64]⟩
abbrev S64x1 : Shape := ⟨2, ![64, 1]⟩
abbrev S64 : Shape := ⟨1, ![64]⟩
abbrev S262144x1 : Shape := ⟨2, ![262144, 1]⟩
abbrev S1x64 : Shape := ⟨2, ![1, 64]⟩

abbrev nBuf : Space → Nat
  | .hbm => 28
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S262144x64, .f32⟩
  | .hbm, ⟨2, _⟩ => ⟨S64x1, .f32⟩
  | .hbm, ⟨3, _⟩ => ⟨S64x1, .f32⟩
  | .hbm, ⟨4, _⟩ => ⟨S64x1, .f32⟩
  | .hbm, ⟨5, _⟩ => ⟨S64x1, .f32⟩
  | .hbm, ⟨6, _⟩ => ⟨S64, .f32⟩
  | .hbm, ⟨7, _⟩ => ⟨S64, .f32⟩
  | .hbm, ⟨8, _⟩ => ⟨S262144x1, .f32⟩
  | .hbm, ⟨9, _⟩ => ⟨S262144x1, .f32⟩
  | .hbm, ⟨10, _⟩ => ⟨S262144x1, .f32⟩
  | .hbm, ⟨11, _⟩ => ⟨S262144x1, .f32⟩
  | .hbm, ⟨12, _⟩ => ⟨S262144x64, .f32⟩
  | .hbm, ⟨13, _⟩ => ⟨S262144x64, .f32⟩
  | .hbm, ⟨14, _⟩ => ⟨S262144x64, .f32⟩
  | .hbm, ⟨15, _⟩ => ⟨S262144x64, .f32⟩
  | .hbm, ⟨16, _⟩ => ⟨S262144x64, .f32⟩
  | .hbm, ⟨17, _⟩ => ⟨S1x64, .f32⟩
  | .hbm, ⟨18, _⟩ => ⟨S262144x64, .f32⟩
  | .hbm, ⟨19, _⟩ => ⟨S262144x64, .f32⟩
  | .hbm, ⟨20, _⟩ => ⟨S262144x64, .f32⟩
  | .hbm, ⟨21, _⟩ => ⟨S262144x64, .f32⟩
  | .hbm, ⟨22, _⟩ => ⟨S262144x64, .f32⟩
  | .hbm, ⟨23, _⟩ => ⟨S262144x64, .f32⟩
  | .hbm, ⟨24, _⟩ => ⟨S262144x64, .f32⟩
  | .hbm, ⟨25, _⟩ => ⟨S1x64, .f32⟩
  | .hbm, ⟨26, _⟩ => ⟨S262144x64, .f32⟩
  | .hbm, ⟨27, _⟩ => ⟨S262144x64, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S262144x1_S262144x64_0_1 : S262144x1.BroadcastsInDim S262144x64 (![0, 1] : Fin 2 → Fin S262144x64.rank)
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  dot_S262144x64_S64x1_S262144x1_1_0_0_1_n_n_wf : DotDims.WF S262144x64 S64x1 S262144x1 [1] [0] [0] [1] [] []

variable [Facts₀]

def dot_S262144x64_S64x1_S262144x1_1_0_0_1_n_n : DotDims S262144x64 S64x1 S262144x1 where
  lhsContracting := [1]
  rhsContracting := [0]
  lhsNonContracting := [0]
  rhsNonContracting := [1]
  lhsBatch := []
  rhsBatch := []
  wf := dot_S262144x64_S64x1_S262144x1_1_0_0_1_n_n_wf

class Facts : Prop extends Facts₀ where

variable [Facts]
-- ==== Proof.LibRowReduce.lean ====
/-
  Reductions along the rows of a matrix, at the ideal values: a reduction over axis 1 of an a × b array, read
  at row p. A maximum that starts from negative infinity is the supremum of the row's entries (the order of
  folding does not matter and the start is the least element); a sum that starts from zero is the sum of the
  row's entries. For any extents.
-/
import Idealize.ShloMosaic.PureOps.Ideal.Laws
import Idealize.ShloMosaic.Lib.ValueIdx

noncomputable section

namespace Cert.LibRowReduce

open Idealize.ShloMosaic Idealize.ShloMosaic.ValueIdx
open scoped BigOperators

/-- The f32 word of negative infinity denotes the least extended real. -/
theorem ofBits_neg_inf : Ideal.ofBits .f32 0xFF800000#32 = (⊥ : EReal) := by simp [Ideal.ofBits, Ideal.ieee]

/-- The coordinate inserted on axis 1 of a row index. -/
theorem lift_row {a b : Nat} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

/-- The maximum of each row from negative infinity, at row p: the supremum over the columns. -/
theorem rowMax_apply {a b : Nat} (y : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ y 0xFF800000#32 h hφ hacc (ix1 p)
      = (Finset.univ : Finset (Fin b)).sup fun k => y (ix2 p k) := by
  refine (Ideal.multiReduction_maximumf_single y _ h hφ hacc (ix1 p)).trans ?_
  rw [show FloatOps.ofBits (F := Ideal) .f32 0xFF800000#32 = (⊥ : EReal) from ofBits_neg_inf]
  exact Finset.sup_congr rfl fun k _ => congrArg y (lift_row h p k)

/-- The sum of each row from zero, at row p: the sum over the columns. -/
theorem rowSum_apply {a b : Nat} (y : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ y 0x00000000#32 h hφ hacc (ix1 p)
      = ∑ k : Fin b, y (ix2 p k) := by
  refine (Ideal.multiReduction_add_single y _ h hφ hacc (ix1 p)).trans ?_
  exact Finset.sum_congr rfl fun k _ => congrArg y (lift_row h p k)

end Cert.LibRowReduce
-- ==== Proof.LibWeightedRowSum.lean ====
/-
  A row of a matrix summed against a weight row, at the ideal values.

  Take an a × b matrix `x` and a 1 × b weight row `w`. Spread the weight row over all a rows, multiply entry by
  entry, and sum each row from zero. Read at row p the result is Σₖ x(p,k) · w(0,k): the product of row p with the
  weight row. (The weight row may first pass through a reshape to its own shape, which changes nothing.) For any
  extents.
-/
import proofs.«109844_j7164005450408_2_alg».proof.Proof.LibRowReduce
import Idealize.ShloMosaic.Lib.Pipeline.Value
import Idealize.ShloMosaic.Lib.ValueLayout

noncomputable section

namespace Cert.LibWeightedRowSum

open Idealize.ShloMosaic Idealize.ShloMosaic.ValueIdx
open scoped BigOperators

/-- The sum from zero over each row of `x` times the weight row `w` spread over the rows, at row p, is
    Σₖ x(p,k) · w(0,k). -/
theorem weightedRowSum_apply {a b : Nat} (x : FVec Ideal ⟨2, ![a, b]⟩ .f32) (w : FVec Ideal ⟨2, ![1, b]⟩ .f32)
    (hc : (⟨2, ![1, b]⟩ : Shape).ShapeCasts ⟨2, ![1, b]⟩)
    (hb : (⟨2, ![1, b]⟩ : Shape).Broadcasts ⟨2, ![a, b]⟩)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩
        (mulf x (broadcastTo ⟨2, ![a, b]⟩ (shapeCast ⟨2, ![1, b]⟩ w hc) hb)) 0x00000000#32 h hφ hacc (ix1 p)
      = ∑ k : Fin b, x (ix2 p k) * w (ix2 (0 : Fin 1) k) := by
  refine (Cert.LibRowReduce.rowSum_apply _ h hφ hacc p).trans ?_
  refine Finset.sum_congr rfl fun k _ => ?_
  show x (ix2 p k) * broadcastTo ⟨2, ![a, b]⟩ (shapeCast ⟨2, ![1, b]⟩ w hc) hb (ix2 p k) = _
  rw [broadcastTo_1b_ab_apply, shapeCast_self]

end Cert.LibWeightedRowSum

end
-- ==== Proof.BlockTerm.lean ====
/-
  What the kernel's body leaves in one output block, read at an entry.

  At a grid point the body holds an 8192 × 64 block of each data matrix (`P0`, `P1`), two weight rows and a bias row
  (`P2`, `P3`, `P4`, each 1 × 64). The generated value leg states the stored block as one index-by-index term with the
  two lane sums kept whole. Read at row r and column d that term is

      P0(r,d) · (Σₖ P1(r,k) · P2(0,k))  +  P1(r,d) · (Σₖ P0(r,k) · P3(0,k))  +  P4(0,d):

  each lane sum, from zero, of a block times a weight row spread over its rows is the product of row r with that
  weight row. Both output windows store this same term (of different weight and bias rows).
-/
import proofs.«109844_j7164005450408_2_alg».proof.Proof.Gen.KernelIdeal.Value
import proofs.«109844_j7164005450408_2_alg».proof.Proof.LibWeightedRowSum

noncomputable section

namespace Cert.KernelIdeal.BlockTerm

open Cert.KernelIdeal Cert.KernelIdeal.Gen Idealize.ShloMosaic Idealize.ShloMosaic.ValueIdx
open Cert.LibWeightedRowSum
open scoped BigOperators

/-- The first output window's block term at (r,d). -/
theorem term8_apply (P0 P1 : FVec Ideal S8192x64 .f32) (P2 P3 P4 : FVec Ideal S1x64 .f32) (r : Fin 8192) (d : Fin 64) :
    Value.E8 (F := Ideal) P0 P1 P2 P3 P4 (ix2 r d)
      = P0 (ix2 r d) * (∑ k : Fin 64, P1 (ix2 r k) * P2 (ix2 (0 : Fin 1) k))
        + P1 (ix2 r d) * (∑ k : Fin 64, P0 (ix2 r k) * P3 (ix2 (0 : Fin 1) k)) + P4 (ix2 (0 : Fin 1) d) := by
  have i0 : Value.ix8_0 (ix2 r d) = ix2 r d := funext fun a => Fin.ext (by match a with | ⟨0, _⟩ => rfl | ⟨1, _⟩ => rfl)
  have i1 : Value.ix8_1 (ix2 r d) = ix1 r := funext fun a => Fin.ext (by match a with | ⟨0, _⟩ => rfl)
  have i2 : Value.ix8_2 (ix2 r d) = ix2 r d := funext fun a => Fin.ext (by match a with | ⟨0, _⟩ => rfl | ⟨1, _⟩ => rfl)
  have i3 : Value.ix8_3 (ix2 r d) = ix1 r := funext fun a => Fin.ext (by match a with | ⟨0, _⟩ => rfl)
  have i4 : Value.ix8_4 (ix2 r d) = ix2 (0 : Fin 1) d := funext fun a => Fin.ext (by match a with | ⟨0, _⟩ => rfl | ⟨1, _⟩ => rfl)
  unfold Value.E8
  rw [i0, i1, i2, i3, i4]
  exact congrArg₂ (· + ·)
    (congrArg₂ (· + ·)
      (congrArg (P0 (ix2 r d) * ·) (weightedRowSum_apply P1 P2 _ _ _ _ _ r))
      (congrArg (P1 (ix2 r d) * ·) (weightedRowSum_apply P0 P3 _ _ _ _ _ r)))
    rfl

/-- The second output window's block term at (r,d): the same term. -/
theorem term9_apply (P0 P1 : FVec Ideal S8192x64 .f32) (P2 P3 P4 : FVec Ideal S1x64 .f32) (r : Fin 8192) (d : Fin 64) :
    Value.E9 (F := Ideal) P0 P1 P2 P3 P4 (ix2 r d)
      = P0 (ix2 r d) * (∑ k : Fin 64, P1 (ix2 r k) * P2 (ix2 (0 : Fin 1) k))
        + P1 (ix2 r d) * (∑ k : Fin 64, P0 (ix2 r k) * P3 (ix2 (0 : Fin 1) k)) + P4 (ix2 (0 : Fin 1) d) :=
  term8_apply P0 P1 P2 P3 P4 r d

end Cert.KernelIdeal.BlockTerm

end
-- ==== Proof.CrossSpec.lean ====
/-
  The cross–compress unit as ONE function of its argument arrays, index by index, on the extended reals.

  For a batch of 262144 rows of width 64, two data matrices `v` and `e`, two weight columns `wa` and `wb`
  (64 × 1) and a bias row of length 64, the unit returns, at row `b` and column `d`,

      v(b,d) · (Σₖ e(b,k) · wa(k,0))  +  e(b,d) · (Σₖ v(b,k) · wb(k,0))  +  bias(d).

  Each inner sum is the product of one row with one weight column, a single number per row; it multiplies the
  whole row of the other matrix. Both outputs of the unit are this function, at two choices of the weight
  columns and the bias. Nothing here needs the entries to be finite: the formula is a sum of products read in
  one fixed order.
-/
import Idealize.ShloMosaic.PureOps.Ideal
import Idealize.ShloMosaic.Lib.ValueIdx

noncomputable section

namespace Cert.CrossSpec

open Idealize.ShloMosaic Idealize.ShloMosaic.ValueIdx
open scoped BigOperators

/-- The data matrices: 262144 rows of width 64. -/
abbrev SBD : Shape := ⟨2, ![262144, 64]⟩
/-- A weight column: 64 × 1. -/
abbrev SD1 : Shape := ⟨2, ![64, 1]⟩
/-- The bias: a vector of length 64. -/
abbrev SD : Shape := ⟨1, ![64]⟩

/-- Row `b` of `x` against the weight column `w`: Σₖ x(b,k) · w(k,0). -/
def rowDot (x : SBD.Idx → EReal) (w : SD1.Idx → EReal) (b : Fin 262144) : EReal :=
  ∑ k : Fin 64, x (ix2 b k) * w (ix2 k (0 : Fin 1))

/-- The unit's output at (b,d): v(b,d) · (e_b · wa) + e(b,d) · (v_b · wb) + bias(d). -/
def cross (v e : SBD.Idx → EReal) (wa wb : SD1.Idx → EReal) (bias : SD.Idx → EReal) : SBD.Idx → EReal :=
  fun i => v i * rowDot e wa (i 0) + e i * rowDot v wb (i 0) + bias (ix1 (i 1))

/-- The same, at an index given by its coordinates. -/
theorem cross_apply (v e : SBD.Idx → EReal) (wa wb : SD1.Idx → EReal) (bias : SD.Idx → EReal)
    (b : Fin 262144) (d : Fin 64) :
    cross v e wa wb bias (ix2 b d)
      = v (ix2 b d) * (∑ k : Fin 64, e (ix2 b k) * wa (ix2 k (0 : Fin 1)))
        + e (ix2 b d) * (∑ k : Fin 64, v (ix2 b k) * wb (ix2 k (0 : Fin 1))) + bias (ix1 d) := rfl

end Cert.CrossSpec

end
-- ==== Proof.BlockIsCross.lean ====
/-
  One entry of an output block is the cross–compress function at the array entry under it.

  Stated for arbitrary blocks. Suppose block entry (r,d) lies over array entry I; that along row r the two data blocks
  hold the two data matrices' row I₀ (so the row products taken inside the block are the row products of the whole
  matrices); that the weight rows hold the weight columns, entry (0,k) for entry (k,0); and that the bias row at
  column d holds the bias at I's column. Then what the body stores at (r,d) is `cross` at I: the block term read there
  (two row products, two scalings, a sum and the bias) is, factor by factor, the formula of `cross`.
-/
import proofs.«109844_j7164005450408_2_alg».proof.Proof.BlockTerm
import proofs.«109844_j7164005450408_2_alg».proof.Proof.CrossSpec

noncomputable section

namespace Cert.KernelIdeal.BlockIsCross

open Cert.KernelIdeal Cert.KernelIdeal.Gen Idealize.ShloMosaic Idealize.ShloMosaic.ValueIdx Cert.CrossSpec
open Cert.KernelIdeal.BlockTerm
open scoped BigOperators

/-- The offsets of a whole-block access are all zero. -/
theorem zero_offsets : (![0, 0] : Fin 2 → Nat) = fun _ => 0 := funext fun a => by fin_cases a <;> rfl

/-- The first output window: it reads the data blocks, weight rows 2 and 3 and bias row 6. -/
theorem first_entry (X0 X1 : FVec Ideal S8192x64 .f32) (X2 X3 X4 X5 X6 X7 : FVec Ideal S1x64 .f32)
    (v e : SBD.Idx → EReal) (wa wb : SD1.Idx → EReal) (bias : SD.Idx → EReal)
    (r : Fin 8192) (d : Fin 64) (I : SBD.Idx)
    (hv : X0 (ix2 r d) = v I) (he : X1 (ix2 r d) = e I)
    (hvr : ∀ k : Fin 64, X0 (ix2 r k) = v (ix2 (I 0) k))
    (her : ∀ k : Fin 64, X1 (ix2 r k) = e (ix2 (I 0) k))
    (hwa : ∀ k : Fin 64, X2 (ix2 (0 : Fin 1) k) = wa (ix2 k (0 : Fin 1)))
    (hwb : ∀ k : Fin 64, X3 (ix2 (0 : Fin 1) k) = wb (ix2 k (0 : Fin 1)))
    (hb : X6 (ix2 (0 : Fin 1) d) = bias (ix1 (I 1))) :
    out0_8 (F := Ideal) X0 X1 X2 X3 X4 X5 X6 X7 (ix2 r d) = cross v e wa wb bias I := by
  unfold out0_8
  simp only [View.ld_unit_zero (S := S8192x64) zero_offsets, View.ld_unit_zero (S := S1x64) zero_offsets]
  refine (Value.canon8_eq (F := Ideal) X0 X1 X2 X3 X6 (ix2 r d)).trans ?_
  refine (term8_apply X0 X1 X2 X3 X6 r d).trans ?_
  rw [hv, he, hb]
  simp only [hvr, her, hwa, hwb]
  rfl

/-- The second output window: it reads the data blocks, weight rows 4 and 5 and bias row 7. -/
theorem second_entry (X0 X1 : FVec Ideal S8192x64 .f32) (X2 X3 X4 X5 X6 X7 : FVec Ideal S1x64 .f32)
    (v e : SBD.Idx → EReal) (wa wb : SD1.Idx → EReal) (bias : SD.Idx → EReal)
    (r : Fin 8192) (d : Fin 64) (I : SBD.Idx)
    (hv : X0 (ix2 r d) = v I) (he : X1 (ix2 r d) = e I)
    (hvr : ∀ k : Fin 64, X0 (ix2 r k) = v (ix2 (I 0) k))
    (her : ∀ k : Fin 64, X1 (ix2 r k) = e (ix2 (I 0) k))
    (hwa : ∀ k : Fin 64, X4 (ix2 (0 : Fin 1) k) = wa (ix2 k (0 : Fin 1)))
    (hwb : ∀ k : Fin 64, X5 (ix2 (0 : Fin 1) k) = wb (ix2 k (0 : Fin 1)))
    (hb : X7 (ix2 (0 : Fin 1) d) = bias (ix1 (I 1))) :
    out0_9 (F := Ideal) X0 X1 X2 X3 X4 X5 X6 X7 (ix2 r d) = cross v e wa wb bias I := by
  unfold out0_9
  simp only [View.ld_unit_zero (S := S8192x64) zero_offsets, View.ld_unit_zero (S := S1x64) zero_offsets]
  refine (Value.canon9_eq (F := Ideal) X0 X1 X4 X5 X7 (ix2 r d)).trans ?_
  refine (term9_apply X0 X1 X4 X5 X7 r d).trans ?_
  rw [hv, he, hb]
  simp only [hvr, her, hwa, hwb]
  rfl

end Cert.KernelIdeal.BlockIsCross

end
-- ==== Proof.KernelArrays.lean ====
/-
  The kernel's two output arrays after its run: each is the cross–compress function of the argument arrays.

  The grid has 32 points; point t handles rows 8192·t … 8192·t + 8191 of the batch. At point t each data window holds
  those rows of its matrix, every weight and bias window holds its whole 1 × 64 row — the weight columns and biases the
  host reshaped to rows before the launch, so row entry (0,k) is column entry (k,0), or bias entry k — and each output
  window's block lies over the same rows of its array. So entry (r,d) of a data block is the matrix entry under it,
  the block's row r is the matrix's row under it, and what the body stores at (r,d) is `cross` of the arguments at the
  array entry under it (the entry lemma for arbitrary blocks). The 32 blocks tile each output array — row b lies in
  block b / 8192 — so each array ends as `cross` of the arguments, everywhere.
-/
import proofs.«109844_j7164005450408_2_alg».proof.Proof.Gen.KernelIdeal.Value
import proofs.«109844_j7164005450408_2_alg».proof.Proof.BlockIsCross
import Idealize.ShloMosaic.Lib.StableHlo.Run
import Idealize.ShloMosaic.Lib.ValueLayout

noncomputable section

namespace Cert.KernelIdeal.Arrays

open Cert.KernelIdeal Cert.KernelIdeal.Gen Idealize.ShloMosaic Idealize.ShloMosaic.TcCoe Idealize.SL.Sem
open Idealize.ShloMosaic.ValueIdx Idealize.ShloMosaic.StableHlo Cert.CrossSpec Cert.KernelIdeal.BlockIsCross
open Idealize.ShloMosaic.Pipeline (Dat)
open scoped BigOperators

variable (m : (ℓ : Loc nD τ sig) → Buf (Elt Ideal) ℓ) (ρ : Dev nD → PrngReg)

/-! ## The weight and bias rows as the region finds them: the host's reshapes of the arguments -/

theorem row_v0 (c : Dev nD) : (V m c main_v0 : S1x64.Idx → EReal)
    = shapeCast S1x64 (m ((c : Thread nD τ).loc main_arg2)) shapeCasts_S64x1_S1x64 := by
  dsimp only [Gen.V, Gen.hostOps0]; after_results; rfl

theorem row_v1 (c : Dev nD) : (V m c main_v1 : S1x64.Idx → EReal)
    = shapeCast S1x64 (m ((c : Thread nD τ).loc main_arg3)) shapeCasts_S64x1_S1x64 := by
  dsimp only [Gen.V, Gen.hostOps0]; after_results; rfl

theorem row_v2 (c : Dev nD) : (V m c main_v2 : S1x64.Idx → EReal)
    = shapeCast S1x64 (m ((c : Thread nD τ).loc main_arg4)) shapeCasts_S64x1_S1x64 := by
  dsimp only [Gen.V, Gen.hostOps0]; after_results; rfl

theorem row_v3 (c : Dev nD) : (V m c main_v3 : S1x64.Idx → EReal)
    = shapeCast S1x64 (m ((c : Thread nD τ).loc main_arg5)) shapeCasts_S64x1_S1x64 := by
  dsimp only [Gen.V, Gen.hostOps0]; after_results; rfl

theorem row_v4 (c : Dev nD) : (V m c main_v4 : S1x64.Idx → EReal)
    = shapeCast S1x64 (m ((c : Thread nD τ).loc main_arg6)) shapeCasts_S64_S1x64 := by
  dsimp only [Gen.V, Gen.hostOps0]; after_results; rfl

theorem row_v5 (c : Dev nD) : (V m c main_v5 : S1x64.Idx → EReal)
    = shapeCast S1x64 (m ((c : Thread nD τ).loc main_arg7)) shapeCasts_S64_S1x64 := by
  dsimp only [Gen.V, Gen.hostOps0]; after_results; rfl

/-- A 64 × 1 column reshaped to a 1 × 64 row: the row's entry (0,k) is the column's entry (k,0). -/
theorem weightRow_apply (x : S64x1.Idx → EReal) (k : Fin 64) :
    shapeCast S1x64 x shapeCasts_S64x1_S1x64 (ix2 (0 : Fin 1) k) = x (ix2 k (0 : Fin 1)) :=
  shapeCast_apply x shapeCasts_S64x1_S1x64 (ix2 (0 : Fin 1) k) (ix2 k (0 : Fin 1)) (by
    rw [Shape.rowMajor_val_two, Shape.rowMajor_val_two]
    show k.val * 1 + 0 = 0 * 64 + k.val
    omega)

/-- A length-64 vector reshaped to a 1 × 64 row: the row's entry (0,d) is the vector's entry d. -/
theorem biasRow_apply (x : S64.Idx → EReal) (d : Fin 64) :
    shapeCast S1x64 x shapeCasts_S64_S1x64 (ix2 (0 : Fin 1) d) = x (ix1 d) :=
  shapeCast_a_1a_apply x shapeCasts_S64_S1x64 0 d

/-! ## Where the windows' blocks sit, decided once over the 32 grid points -/

/-- The data windows and the second output window move with the first output window along the rows and sit at column
    block 0; the weight and bias windows stay at block (0,0); the first output window's row block is the point. -/
theorem idx_facts : ∀ t : Fin cfg0.N,
    win0_0.index t (0 : Fin 2) = win0_8.index t (0 : Fin 2)
    ∧ win0_0.index t (1 : Fin 2) = 0
    ∧ win0_1.index t (0 : Fin 2) = win0_8.index t (0 : Fin 2)
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = t.val
    ∧ win0_8.index t (1 : Fin 2) = 0
    ∧ win0_9.index t (0 : Fin 2) = win0_8.index t (0 : Fin 2)
    ∧ win0_9.index t (1 : Fin 2) = 0
    ∧ win0_8.index t (0 : Fin 2) ≤ 31 :=
  (by decide +kernel : ∀ t : Fin grid0.N, _)

/-- Every one of the 32 row blocks is some point's. -/
theorem idx_onto : ∀ q : Fin 32, ∃ t : Fin cfg0.N, win0_8.index t (0 : Fin 2) = q.val :=
  (by decide +kernel : ∀ q : Fin 32, ∃ t : Fin grid0.N, win0_8.index t (0 : Fin 2) = q.val)

/-! ## The blocks' entries located in the argument arrays -/

/-- Block entry (r,d) of data window 0 is the argument's entry under output block entry (r,d). -/
theorem data0_entry (c : Dev nD) (t : Fin cfg0.N) (r : Fin 8192) (d : Fin 64) :
    iblk m c 0 t (ix2 r d) = (m ((c : Thread nD τ).loc main_arg0)) (((cfg0.win 8).blk t).view.emb (ix2 r d)) := by
  obtain ⟨f0a, f0b, f1a, f1b, f2a, f2b, f3a, f3b, f4a, f4b, f5a, f5b, f6a, f6b, f7a, f7b, f8a, f8b, f9a, f9b, f8le⟩ := idx_facts t
  show V m c main_arg0 (((cfg0.win 0).blk t).view.emb (ix2 r d)) = _
  rw [V_main_arg0]
  refine congrArg _ (funext fun a => Fin.ext ?_)
  match a with
  | ⟨0, _⟩ => show win0_0.index t (0 : Fin 2) * 8192 + 1 * r.val = win0_8.index t (0 : Fin 2) * 8192 + 1 * r.val; omega
  | ⟨1, _⟩ => show win0_0.index t (1 : Fin 2) * 64 + 1 * d.val = win0_8.index t (1 : Fin 2) * 64 + 1 * d.val; omega

/-- Along row r, data window 0's block holds the argument's row under it. -/
theorem data0_row (c : Dev nD) (t : Fin cfg0.N) (r : Fin 8192) (d : Fin 64) (k : Fin 64) :
    iblk m c 0 t (ix2 r k) = (m ((c : Thread nD τ).loc main_arg0)) (ix2 ((((cfg0.win 8).blk t).view.emb (ix2 r d)) 0) k) := by
  obtain ⟨f0a, f0b, f1a, f1b, f2a, f2b, f3a, f3b, f4a, f4b, f5a, f5b, f6a, f6b, f7a, f7b, f8a, f8b, f9a, f9b, f8le⟩ := idx_facts t
  show V m c main_arg0 (((cfg0.win 0).blk t).view.emb (ix2 r k)) = _
  rw [V_main_arg0]
  refine congrArg _ (funext fun a => Fin.ext ?_)
  match a with
  | ⟨0, _⟩ => show win0_0.index t (0 : Fin 2) * 8192 + 1 * r.val = win0_8.index t (0 : Fin 2) * 8192 + 1 * r.val; omega
  | ⟨1, _⟩ => show win0_0.index t (1 : Fin 2) * 64 + 1 * k.val = k.val; omega

/-- Block entry (r,d) of data window 1 is the argument's entry under output block entry (r,d). -/
theorem data1_entry (c : Dev nD) (t : Fin cfg0.N) (r : Fin 8192) (d : Fin 64) :
    iblk m c 1 t (ix2 r d) = (m ((c : Thread nD τ).loc main_arg1)) (((cfg0.win 8).blk t).view.emb (ix2 r d)) := by
  obtain ⟨f0a, f0b, f1a, f1b, f2a, f2b, f3a, f3b, f4a, f4b, f5a, f5b, f6a, f6b, f7a, f7b, f8a, f8b, f9a, f9b, f8le⟩ := idx_facts t
  show V m c main_arg1 (((cfg0.win 1).blk t).view.emb (ix2 r d)) = _
  rw [V_main_arg1]
  refine congrArg _ (funext fun a => Fin.ext ?_)
  match a with
  | ⟨0, _⟩ => show win0_1.index t (0 : Fin 2) * 8192 + 1 * r.val = win0_8.index t (0 : Fin 2) * 8192 + 1 * r.val; omega
  | ⟨1, _⟩ => show win0_1.index t (1 : Fin 2) * 64 + 1 * d.val = win0_8.index t (1 : Fin 2) * 64 + 1 * d.val; omega

/-- Along row r, data window 1's block holds the argument's row under it. -/
theorem data1_row (c : Dev nD) (t : Fin cfg0.N) (r : Fin 8192) (d : Fin 64) (k : Fin 64) :
    iblk m c 1 t (ix2 r k) = (m ((c : Thread nD τ).loc main_arg1)) (ix2 ((((cfg0.win 8).blk t).view.emb (ix2 r d)) 0) k) := by
  obtain ⟨f0a, f0b, f1a, f1b, f2a, f2b, f3a, f3b, f4a, f4b, f5a, f5b, f6a, f6b, f7a, f7b, f8a, f8b, f9a, f9b, f8le⟩ := idx_facts t
  show V m c main_arg1 (((cfg0.win 1).blk t).view.emb (ix2 r k)) = _
  rw [V_main_arg1]
  refine congrArg _ (funext fun a => Fin.ext ?_)
  match a with
  | ⟨0, _⟩ => show win0_1.index t (0 : Fin 2) * 8192 + 1 * r.val = win0_8.index t (0 : Fin 2) * 8192 + 1 * r.val; omega
  | ⟨1, _⟩ => show win0_1.index t (1 : Fin 2) * 64 + 1 * k.val = k.val; omega

/-- Weight window 2's one block is the reshaped weight column: entry (0,k) is the column's entry (k,0). -/
theorem weight2_entry (c : Dev nD) (t : Fin cfg0.N) (k : Fin 64) :
    iblk m c 2 t (ix2 (0 : Fin 1) k) = (m ((c : Thread nD τ).loc main_arg2)) (ix2 k (0 : Fin 1)) := by
  obtain ⟨f0a, f0b, f1a, f1b, f2a, f2b, f3a, f3b, f4a, f4b, f5a, f5b, f6a, f6b, f7a, f7b, f8a, f8b, f9a, f9b, f8le⟩ := idx_facts t
  show V m c main_v0 (((cfg0.win 2).blk t).view.emb (ix2 (0 : Fin 1) k)) = _
  rw [row_v0]
  refine (congrArg _ (funext fun a => Fin.ext ?_)).trans (weightRow_apply (m ((c : Thread nD τ).loc main_arg2)) k)
  match a with
  | ⟨0, _⟩ => show win0_2.index t (0 : Fin 2) * 1 + 1 * 0 = 0; omega
  | ⟨1, _⟩ => show win0_2.index t (1 : Fin 2) * 64 + 1 * k.val = k.val; omega

/-- Weight window 3's one block is the reshaped weight column: entry (0,k) is the column's entry (k,0). -/
theorem weight3_entry (c : Dev nD) (t : Fin cfg0.N) (k : Fin 64) :
    iblk m c 3 t (ix2 (0 : Fin 1) k) = (m ((c : Thread nD τ).loc main_arg3)) (ix2 k (0 : Fin 1)) := by
  obtain ⟨f0a, f0b, f1a, f1b, f2a, f2b, f3a, f3b, f4a, f4b, f5a, f5b, f6a, f6b, f7a, f7b, f8a, f8b, f9a, f9b, f8le⟩ := idx_facts t
  show V m c main_v1 (((cfg0.win 3).blk t).view.emb (ix2 (0 : Fin 1) k)) = _
  rw [row_v1]
  refine (congrArg _ (funext fun a => Fin.ext ?_)).trans (weightRow_apply (m ((c : Thread nD τ).loc main_arg3)) k)
  match a with
  | ⟨0, _⟩ => show win0_3.index t (0 : Fin 2) * 1 + 1 * 0 = 0; omega
  | ⟨1, _⟩ => show win0_3.index t (1 : Fin 2) * 64 + 1 * k.val = k.val; omega

/-- Weight window 4's one block is the reshaped weight column: entry (0,k) is the column's entry (k,0). -/
theorem weight4_entry (c : Dev nD) (t : Fin cfg0.N) (k : Fin 64) :
    iblk m c 4 t (ix2 (0 : Fin 1) k) = (m ((c : Thread nD τ).loc main_arg4)) (ix2 k (0 : Fin 1)) := by
  obtain ⟨f0a, f0b, f1a, f1b, f2a, f2b, f3a, f3b, f4a, f4b, f5a, f5b, f6a, f6b, f7a, f7b, f8a, f8b, f9a, f9b, f8le⟩ := idx_facts t
  show V m c main_v2 (((cfg0.win 4).blk t).view.emb (ix2 (0 : Fin 1) k)) = _
  rw [row_v2]
  refine (congrArg _ (funext fun a => Fin.ext ?_)).trans (weightRow_apply (m ((c : Thread nD τ).loc main_arg4)) k)
  match a with
  | ⟨0, _⟩ => show win0_4.index t (0 : Fin 2) * 1 + 1 * 0 = 0; omega
  | ⟨1, _⟩ => show win0_4.index t (1 : Fin 2) * 64 + 1 * k.val = k.val; omega

/-- Weight window 5's one block is the reshaped weight column: entry (0,k) is the column's entry (k,0). -/
theorem weight5_entry (c : Dev nD) (t : Fin cfg0.N) (k : Fin 64) :
    iblk m c 5 t (ix2 (0 : Fin 1) k) = (m ((c : Thread nD τ).loc main_arg5)) (ix2 k (0 : Fin 1)) := by
  obtain ⟨f0a, f0b, f1a, f1b, f2a, f2b, f3a, f3b, f4a, f4b, f5a, f5b, f6a, f6b, f7a, f7b, f8a, f8b, f9a, f9b, f8le⟩ := idx_facts t
  show V m c main_v3 (((cfg0.win 5).blk t).view.emb (ix2 (0 : Fin 1) k)) = _
  rw [row_v3]
  refine (congrArg _ (funext fun a => Fin.ext ?_)).trans (weightRow_apply (m ((c : Thread nD τ).loc main_arg5)) k)
  match a with
  | ⟨0, _⟩ => show win0_5.index t (0 : Fin 2) * 1 + 1 * 0 = 0; omega
  | ⟨1, _⟩ => show win0_5.index t (1 : Fin 2) * 64 + 1 * k.val = k.val; omega

/-- Bias window 6's one block is the reshaped bias: entry (0,d) is the bias at the column under output block entry (r,d). -/
theorem bias6_entry (c : Dev nD) (t : Fin cfg0.N) (r : Fin 8192) (d : Fin 64) :
    iblk m c 6 t (ix2 (0 : Fin 1) d) = (m ((c : Thread nD τ).loc main_arg6)) (ix1 ((((cfg0.win 8).blk t).view.emb (ix2 r d)) 1)) := by
  obtain ⟨f0a, f0b, f1a, f1b, f2a, f2b, f3a, f3b, f4a, f4b, f5a, f5b, f6a, f6b, f7a, f7b, f8a, f8b, f9a, f9b, f8le⟩ := idx_facts t
  show V m c main_v4 (((cfg0.win 6).blk t).view.emb (ix2 (0 : Fin 1) d)) = _
  rw [row_v4]
  refine ((congrArg _ (funext fun a => Fin.ext ?_)).trans (biasRow_apply (m ((c : Thread nD τ).loc main_arg6)) d)).trans
    (congrArg _ (funext fun a => Fin.ext ?_))
  · match a with
    | ⟨0, _⟩ => show win0_6.index t (0 : Fin 2) * 1 + 1 * 0 = 0; omega
    | ⟨1, _⟩ => show win0_6.index t (1 : Fin 2) * 64 + 1 * d.val = d.val; omega
  · match a with
    | ⟨0, _⟩ => show d.val = win0_8.index t (1 : Fin 2) * 64 + 1 * d.val; omega

/-- Bias window 7's one block is the reshaped bias: entry (0,d) is the bias at the column under output block entry (r,d). -/
theorem bias7_entry (c : Dev nD) (t : Fin cfg0.N) (r : Fin 8192) (d : Fin 64) :
    iblk m c 7 t (ix2 (0 : Fin 1) d) = (m ((c : Thread nD τ).loc main_arg7)) (ix1 ((((cfg0.win 8).blk t).view.emb (ix2 r d)) 1)) := by
  obtain ⟨f0a, f0b, f1a, f1b, f2a, f2b, f3a, f3b, f4a, f4b, f5a, f5b, f6a, f6b, f7a, f7b, f8a, f8b, f9a, f9b, f8le⟩ := idx_facts t
  show V m c main_v5 (((cfg0.win 7).blk t).view.emb (ix2 (0 : Fin 1) d)) = _
  rw [row_v5]
  refine ((congrArg _ (funext fun a => Fin.ext ?_)).trans (biasRow_apply (m ((c : Thread nD τ).loc main_arg7)) d)).trans
    (congrArg _ (funext fun a => Fin.ext ?_))
  · match a with
    | ⟨0, _⟩ => show win0_7.index t (0 : Fin 2) * 1 + 1 * 0 = 0; omega
    | ⟨1, _⟩ => show win0_7.index t (1 : Fin 2) * 64 + 1 * d.val = d.val; omega
  · match a with
    | ⟨0, _⟩ => show d.val = win0_8.index t (1 : Fin 2) * 64 + 1 * d.val; omega

/-- The second output window's block lies over the same array entries as the first's. -/
theorem emb9_eq (t : Fin cfg0.N) (r : Fin 8192) (d : Fin 64) :
    ((cfg0.win 9).blk t).view.emb (ix2 r d) = ((cfg0.win 8).blk t).view.emb (ix2 r d) := by
  obtain ⟨f0a, f0b, f1a, f1b, f2a, f2b, f3a, f3b, f4a, f4b, f5a, f5b, f6a, f6b, f7a, f7b, f8a, f8b, f9a, f9b, f8le⟩ := idx_facts t
  refine funext fun a => Fin.ext ?_
  match a with
  | ⟨0, _⟩ => show win0_9.index t (0 : Fin 2) * 8192 + 1 * r.val = win0_8.index t (0 : Fin 2) * 8192 + 1 * r.val; omega
  | ⟨1, _⟩ => show win0_9.index t (1 : Fin 2) * 64 + 1 * d.val = win0_8.index t (1 : Fin 2) * 64 + 1 * d.val; omega

/-! ## What each point writes back, the cover, and the arrays after the run -/

/-- What point t writes back to output window 8's array is block t of `cross` of the arguments. -/
theorem flushed8_eq (c : Dev nD) (t : Fin cfg0.N) :
    (dats m 0 c).flushed 8 t = ((cfg0.win 8).blk t).view.read (Elt Ideal) (cross (m ((c : Thread nD τ).loc main_arg0)) (m ((c : Thread nD τ).loc main_arg1)) (m ((c : Thread nD τ).loc main_arg2)) (m ((c : Thread nD τ).loc main_arg3)) (m ((c : Thread nD τ).loc main_arg6))) := by
  rw [Value.flushed8]
  refine funext fun (y : S8192x64.Idx) => ?_
  obtain ⟨r, d, rfl⟩ : ∃ (r : Fin 8192) (d : Fin 64), y = ix2 r d := ⟨y 0, y 1, eq_ix2 y⟩
  show out0_8 (F := Ideal) (iblk m c 0 t) (iblk m c 1 t) (iblk m c 2 t) (iblk m c 3 t) (iblk m c 4 t) (iblk m c 5 t) (iblk m c 6 t) (iblk m c 7 t) (ix2 r d)
    = (cross (m ((c : Thread nD τ).loc main_arg0)) (m ((c : Thread nD τ).loc main_arg1)) (m ((c : Thread nD τ).loc main_arg2)) (m ((c : Thread nD τ).loc main_arg3)) (m ((c : Thread nD τ).loc main_arg6))) (((cfg0.win 8).blk t).view.emb (ix2 r d))
  exact first_entry (iblk m c 0 t) (iblk m c 1 t) (iblk m c 2 t) (iblk m c 3 t) (iblk m c 4 t) (iblk m c 5 t) (iblk m c 6 t) (iblk m c 7 t)
    (m ((c : Thread nD τ).loc main_arg0)) (m ((c : Thread nD τ).loc main_arg1)) (m ((c : Thread nD τ).loc main_arg2)) (m ((c : Thread nD τ).loc main_arg3)) (m ((c : Thread nD τ).loc main_arg6)) r d (((cfg0.win 8).blk t).view.emb (ix2 r d))
    (data0_entry m c t r d) (data1_entry m c t r d) (data0_row m c t r d) (data1_row m c t r d)
    (weight2_entry m c t) (weight3_entry m c t) (bias6_entry m c t r d)

/-- What point t writes back to output window 9's array is block t of `cross` of the arguments. -/
theorem flushed9_eq (c : Dev nD) (t : Fin cfg0.N) :
    (dats m 0 c).flushed 9 t = ((cfg0.win 9).blk t).view.read (Elt Ideal) (cross (m ((c : Thread nD τ).loc main_arg0)) (m ((c : Thread nD τ).loc main_arg1)) (m ((c : Thread nD τ).loc main_arg4)) (m ((c : Thread nD τ).loc main_arg5)) (m ((c : Thread nD τ).loc main_arg7))) := by
  rw [Value.flushed9]
  refine funext fun (y : S8192x64.Idx) => ?_
  obtain ⟨r, d, rfl⟩ : ∃ (r : Fin 8192) (d : Fin 64), y = ix2 r d := ⟨y 0, y 1, eq_ix2 y⟩
  show out0_9 (F := Ideal) (iblk m c 0 t) (iblk m c 1 t) (iblk m c 2 t) (iblk m c 3 t) (iblk m c 4 t) (iblk m c 5 t) (iblk m c 6 t) (iblk m c 7 t) (ix2 r d)
    = (cross (m ((c : Thread nD τ).loc main_arg0)) (m ((c : Thread nD τ).loc main_arg1)) (m ((c : Thread nD τ).loc main_arg4)) (m ((c : Thread nD τ).loc main_arg5)) (m ((c : Thread nD τ).loc main_arg7))) (((cfg0.win 9).blk t).view.emb (ix2 r d))
  rw [emb9_eq t r d]
  exact second_entry (iblk m c 0 t) (iblk m c 1 t) (iblk m c 2 t) (iblk m c 3 t) (iblk m c 4 t) (iblk m c 5 t) (iblk m c 6 t) (iblk m c 7 t)
    (m ((c : Thread nD τ).loc main_arg0)) (m ((c : Thread nD τ).loc main_arg1)) (m ((c : Thread nD τ).loc main_arg4)) (m ((c : Thread nD τ).loc main_arg5)) (m ((c : Thread nD τ).loc main_arg7)) r d (((cfg0.win 8).blk t).view.emb (ix2 r d))
    (data0_entry m c t r d) (data1_entry m c t r d) (data0_row m c t r d) (data1_row m c t r d)
    (weight4_entry m c t) (weight5_entry m c t) (bias7_entry m c t r d)

/-- An array index is in point t's block of output window 8 exactly when each coordinate is in the block's range. -/
theorem mem_blk8 (t : Fin cfg0.N) (i : S262144x64.Idx) :
    i ∈ ((cfg0.win 8).blk t).view.set ↔ ∀ a : Fin 2, win0_8.index t a * S8192x64.size a ≤ (i a).val
      ∧ (i a).val < win0_8.index t a * S8192x64.size a + S8192x64.size a := by
  show i ∈ ((View.whole main_v6_0).slice (win0_8.rect t)).set ↔ _
  rw [View.set_slice_whole, Rect.mem_set_unit]
  exact Iff.rfl

/-- Every entry of output window 8's array is in some point's block: row b is in block b / 8192. -/
theorem cover8 (i : S262144x64.Idx) :
    ∃ t : Fin cfg0.N, (cfg0.win 8).flush t = true ∧ i ∈ ((cfg0.win 8).blk t).view.set := by
  have hi0 : (i 0).val < 262144 := (i 0).isLt
  have hi1 : (i 1).val < 64 := (i 1).isLt
  obtain ⟨t, ht⟩ := idx_onto ⟨(i 0).val / 8192, by omega⟩
  have q0 : win0_8.index t (0 : Fin 2) = (i 0).val / 8192 := ht
  obtain ⟨f0a, f0b, f1a, f1b, f2a, f2b, f3a, f3b, f4a, f4b, f5a, f5b, f6a, f6b, f7a, f7b, f8a, f8b, f9a, f9b, f8le⟩ := idx_facts t
  refine ⟨t, flush0_8 t, ?_⟩
  rw [mem_blk8]
  intro a
  match a with
  | ⟨0, _⟩ => show win0_8.index t (0 : Fin 2) * 8192 ≤ (i 0).val ∧ (i 0).val < win0_8.index t (0 : Fin 2) * 8192 + 8192; omega
  | ⟨1, _⟩ => show win0_8.index t (1 : Fin 2) * 64 ≤ (i 1).val ∧ (i 1).val < win0_8.index t (1 : Fin 2) * 64 + 64; omega

/-- So after the run output window 8's array is `cross` of the arguments. -/
theorem final8 (c : Dev nD) : (dats m 0 c).arrAt 8 cfg0.N = (cross (m ((c : Thread nD τ).loc main_arg0)) (m ((c : Thread nD τ).loc main_arg1)) (m ((c : Thread nD τ).loc main_arg2)) (m ((c : Thread nD τ).loc main_arg3)) (m ((c : Thread nD τ).loc main_arg6))) :=
  (dats m 0 c).arrAt_eq_of_cover 8 (cross (m ((c : Thread nD τ).loc main_arg0)) (m ((c : Thread nD τ).loc main_arg1)) (m ((c : Thread nD τ).loc main_arg2)) (m ((c : Thread nD τ).loc main_arg3)) (m ((c : Thread nD τ).loc main_arg6))) (fun t _ => flushed8_eq m c t) cover8

/-- An array index is in point t's block of output window 9 exactly when each coordinate is in the block's range. -/
theorem mem_blk9 (t : Fin cfg0.N) (i : S262144x64.Idx) :
    i ∈ ((cfg0.win 9).blk t).view.set ↔ ∀ a : Fin 2, win0_9.index t a * S8192x64.size a ≤ (i a).val
      ∧ (i a).val < win0_9.index t a * S8192x64.size a + S8192x64.size a := by
  show i ∈ ((View.whole main_v6_1).slice (win0_9.rect t)).set ↔ _
  rw [View.set_slice_whole, Rect.mem_set_unit]
  exact Iff.rfl

/-- Every entry of output window 9's array is in some point's block: row b is in block b / 8192. -/
theorem cover9 (i : S262144x64.Idx) :
    ∃ t : Fin cfg0.N, (cfg0.win 9).flush t = true ∧ i ∈ ((cfg0.win 9).blk t).view.set := by
  have hi0 : (i 0).val < 262144 := (i 0).isLt
  have hi1 : (i 1).val < 64 := (i 1).isLt
  obtain ⟨t, ht⟩ := idx_onto ⟨(i 0).val / 8192, by omega⟩
  have q0 : win0_8.index t (0 : Fin 2) = (i 0).val / 8192 := ht
  obtain ⟨f0a, f0b, f1a, f1b, f2a, f2b, f3a, f3b, f4a, f4b, f5a, f5b, f6a, f6b, f7a, f7b, f8a, f8b, f9a, f9b, f8le⟩ := idx_facts t
  refine ⟨t, flush0_9 t, ?_⟩
  rw [mem_blk9]
  intro a
  match a with
  | ⟨0, _⟩ => show win0_9.index t (0 : Fin 2) * 8192 ≤ (i 0).val ∧ (i 0).val < win0_9.index t (0 : Fin 2) * 8192 + 8192; omega
  | ⟨1, _⟩ => show win0_9.index t (1 : Fin 2) * 64 ≤ (i 1).val ∧ (i 1).val < win0_9.index t (1 : Fin 2) * 64 + 64; omega

/-- So after the run output window 9's array is `cross` of the arguments. -/
theorem final9 (c : Dev nD) : (dats m 0 c).arrAt 9 cfg0.N = (cross (m ((c : Thread nD τ).loc main_arg0)) (m ((c : Thread nD τ).loc main_arg1)) (m ((c : Thread nD τ).loc main_arg4)) (m ((c : Thread nD τ).loc main_arg5)) (m ((c : Thread nD τ).loc main_arg7))) :=
  (dats m 0 c).arrAt_eq_of_cover 9 (cross (m ((c : Thread nD τ).loc main_arg0)) (m ((c : Thread nD τ).loc main_arg1)) (m ((c : Thread nD τ).loc main_arg4)) (m ((c : Thread nD τ).loc main_arg5)) (m ((c : Thread nD τ).loc main_arg7))) (fun t _ => flushed9_eq m c t) cover9

/-! ## The run -/

/-- Every weakly fair execution of the kernel terminates with both results at `cross` of the arguments and the
    arguments unchanged. -/
theorem run : θ_run defs (onTc (τ := τ) (main (F := Ideal))) ⟨m, fun _ => 0, ρ⟩ fun r => ∀ c : Dev nD,
      r.2.mem ((c : Thread nD τ).loc main_v6_0) = (cross (m ((c : Thread nD τ).loc main_arg0)) (m ((c : Thread nD τ).loc main_arg1)) (m ((c : Thread nD τ).loc main_arg2)) (m ((c : Thread nD τ).loc main_arg3)) (m ((c : Thread nD τ).loc main_arg6)))
      ∧ r.2.mem ((c : Thread nD τ).loc main_v6_1) = (cross (m ((c : Thread nD τ).loc main_arg0)) (m ((c : Thread nD τ).loc main_arg1)) (m ((c : Thread nD τ).loc main_arg4)) (m ((c : Thread nD τ).loc main_arg5)) (m ((c : Thread nD τ).loc main_arg7)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c), (h c).2.1.trans (final9 m c), (h c).2.2⟩)
    (Value.run_blocks m ρ)

end Cert.KernelIdeal.Arrays

end
-- ==== Proof.ReferenceIsCross.lean ====
/-
  The reference computes the cross–compress function.

  The reference forms each row-times-column product as a matrix product of a data matrix (262144 × 64) with a weight
  column (64 × 1), spreads the resulting column over the 64 columns, multiplies it into the other data matrix, adds the
  two such terms and adds the bias spread over the rows. Read at (b,d), operation by operation, the matrix product at
  (b,0) is Σₖ x(b,k) · w(k,0), each spreading reads its operand at the coordinate it keeps, and the products and sums
  are entrywise: the result is `cross` at (b,d), term for term and in the same order.
-/
import proofs.«109844_j7164005450408_2_alg».proof.Proof.Gen.ReferenceIdeal.Read
import proofs.«109844_j7164005450408_2_alg».proof.Proof.CrossSpec

noncomputable section

namespace Cert.ReferenceIdeal.IsCross

open Cert.ReferenceIdeal Cert.ReferenceIdeal.Read Idealize.ShloMosaic Idealize.ShloMosaic.ValueIdx Cert.CrossSpec
open scoped BigOperators

/-- The first result, `v`'s output: `cross` of v, e, the weight columns vv and ev, and v's bias. -/
theorem first_eq (x0 x1 : (⟨S262144x64, .f32⟩ : BufTy).Contents (Elt Ideal))
    (x2 x3 : (⟨S64x1, .f32⟩ : BufTy).Contents (Elt Ideal)) (x6 : (⟨S64, .f32⟩ : BufTy).Contents (Elt Ideal)) :
    val_main_v11 (F := Ideal) x0 x1 x2 x3 x6 = cross x0 x1 x2 x3 x6 := by
  funext i
  obtain ⟨b, d, rfl⟩ : ∃ (b : Fin 262144) (d : Fin 64), i = ix2 b d := ⟨i 0, i 1, eq_ix2 i⟩
  have hl0 : ∀ k : Fin 64, lidx_main_v0 (idx_main_v4 (ix2 b d)) k = ix2 b k :=
    fun k => funext fun a => Fin.ext (by match a with | ⟨0, _⟩ => rfl | ⟨1, _⟩ => rfl)
  have hr0 : ∀ k : Fin 64, ridx_main_v0 (idx_main_v4 (ix2 b d)) k = ix2 k (0 : Fin 1) :=
    fun k => funext fun a => Fin.ext (by match a with | ⟨0, _⟩ => rfl | ⟨1, _⟩ => rfl)
  have hl1 : ∀ k : Fin 64, lidx_main_v1 (idx_main_v6 (ix2 b d)) k = ix2 b k :=
    fun k => funext fun a => Fin.ext (by match a with | ⟨0, _⟩ => rfl | ⟨1, _⟩ => rfl)
  have hr1 : ∀ k : Fin 64, ridx_main_v1 (idx_main_v6 (ix2 b d)) k = ix2 k (0 : Fin 1) :=
    fun k => funext fun a => Fin.ext (by match a with | ⟨0, _⟩ => rfl | ⟨1, _⟩ => rfl)
  have hb : idx_main_v9 (idx_main_v10 (ix2 b d)) = ix1 d :=
    funext fun a => Fin.ext (by match a with | ⟨0, _⟩ => rfl)
  rw [val_main_v11_apply, val_main_v8_apply, val_main_v5_apply, val_main_v4_apply, val_main_v0_apply,
    val_main_v7_apply, val_main_v6_apply, val_main_v1_apply, val_main_v10_apply, val_main_v9_apply, cross_apply]
  simp only [hl0, hr0, hl1, hr1, hb]
  rfl

/-- The second result, `e`'s output: `cross` of v, e, the weight columns ve and ee, and e's bias. -/
theorem second_eq (x0 x1 : (⟨S262144x64, .f32⟩ : BufTy).Contents (Elt Ideal))
    (x4 x5 : (⟨S64x1, .f32⟩ : BufTy).Contents (Elt Ideal)) (x7 : (⟨S64, .f32⟩ : BufTy).Contents (Elt Ideal)) :
    val_main_v19 (F := Ideal) x0 x1 x4 x5 x7 = cross x0 x1 x4 x5 x7 := by
  funext i
  obtain ⟨b, d, rfl⟩ : ∃ (b : Fin 262144) (d : Fin 64), i = ix2 b d := ⟨i 0, i 1, eq_ix2 i⟩
  have hl2 : ∀ k : Fin 64, lidx_main_v2 (idx_main_v12 (ix2 b d)) k = ix2 b k :=
    fun k => funext fun a => Fin.ext (by match a with | ⟨0, _⟩ => rfl | ⟨1, _⟩ => rfl)
  have hr2 : ∀ k : Fin 64, ridx_main_v2 (idx_main_v12 (ix2 b d)) k = ix2 k (0 : Fin 1) :=
    fun k => funext fun a => Fin.ext (by match a with | ⟨0, _⟩ => rfl | ⟨1, _⟩ => rfl)
  have hl3 : ∀ k : Fin 64, lidx_main_v3 (idx_main_v14 (ix2 b d)) k = ix2 b k :=
    fun k => funext fun a => Fin.ext (by match a with | ⟨0, _⟩ => rfl | ⟨1, _⟩ => rfl)
  have hr3 : ∀ k : Fin 64, ridx_main_v3 (idx_main_v14 (ix2 b d)) k = ix2 k (0 : Fin 1) :=
    fun k => funext fun a => Fin.ext (by match a with | ⟨0, _⟩ => rfl | ⟨1, _⟩ => rfl)
  have hb : idx_main_v17 (idx_main_v18 (ix2 b d)) = ix1 d :=
    funext fun a => Fin.ext (by match a with | ⟨0, _⟩ => rfl)
  rw [val_main_v19_apply, val_main_v16_apply, val_main_v13_apply, val_main_v12_apply, val_main_v2_apply,
    val_main_v15_apply, val_main_v14_apply, val_main_v3_apply, val_main_v18_apply, val_main_v17_apply, cross_apply]
  simp only [hl2, hr2, hl3, hr3, hb]
  rfl

end Cert.ReferenceIdeal.IsCross

end
-- ==== Proof.lean ====
/-
  The cross–compress unit: a tiled kernel against its plain reference, equal on the extended reals.

  Inputs: data matrices v, e (262144 × 64), four weight columns (64 × 1) and two biases (length 64). Both programs
  return two matrices; at row b and column d the first is

      v(b,d) · (Σₖ e(b,k) · w_vv(k))  +  e(b,d) · (Σₖ v(b,k) · w_ev(k))  +  bias_v(d)

  and the second the same with w_ve, w_ee and bias_e (`CrossSpec.cross`).

  The kernel walks the batch in 32 blocks of 8192 rows. The host first reshapes each weight column and bias to a
  1 × 64 row; in a block the body multiplies a data block by a weight row spread over its rows and sums each row from
  zero — the product of that row with the weight column —, scales the other data block's rows by these numbers, adds
  the two and adds the bias row. An entry of an output block is therefore `cross` at the array entry under it
  (BlockTerm, BlockIsCross), and since the blocks tile the arrays each output array is `cross` of the arguments
  (KernelArrays). The reference forms the same row products as matrix products with the weight columns and spreads
  them over the columns; read entry by entry it is `cross` too, term for term (ReferenceIsCross).

  The two sides are the same sums of the same products in the same order, so no entry needs to be finite: the
  precondition is not used. The kernel's idealization rewrote nothing, so it has nothing to preserve beyond its own
  text. Each program's run terminates without fault and leaves its arguments as they were: for the two kernels this
  is the generated frame, for the reference its generated run with the results dropped.
-/
import proofs.«109844_j7164005450408_2_alg».proof.Defs
import proofs.«109844_j7164005450408_2_alg».proof.Proof.Gen.Kernel
import proofs.«109844_j7164005450408_2_alg».proof.Proof.Gen.Kernel.Skeleton
import proofs.«109844_j7164005450408_2_alg».proof.Proof.Gen.Kernel.Launch
import proofs.«109844_j7164005450408_2_alg».proof.Proof.Gen.Kernel.Points
import proofs.«109844_j7164005450408_2_alg».proof.Proof.Gen.Kernel.Frame
import proofs.«109844_j7164005450408_2_alg».proof.Proof.Gen.KernelIdeal
import proofs.«109844_j7164005450408_2_alg».proof.Proof.Gen.KernelIdeal.Skeleton
import proofs.«109844_j7164005450408_2_alg».proof.Proof.Gen.KernelIdeal.Launch
import proofs.«109844_j7164005450408_2_alg».proof.Proof.Gen.KernelIdeal.Points
import proofs.«109844_j7164005450408_2_alg».proof.Proof.Gen.KernelIdeal.Frame
import proofs.«109844_j7164005450408_2_alg».proof.Proof.Gen.ReferenceIdeal
import proofs.«109844_j7164005450408_2_alg».proof.Proof.Gen.Pre_finite_inputs
import proofs.«109844_j7164005450408_2_alg».proof.Proof.Gen.KernelIdeal.Value
import proofs.«109844_j7164005450408_2_alg».proof.Proof.Gen.ReferenceIdeal.Run
import proofs.«109844_j7164005450408_2_alg».proof.Proof.Gen.ReferenceIdeal.Read
import proofs.«109844_j7164005450408_2_alg».proof.Proof.KernelArrays
import proofs.«109844_j7164005450408_2_alg».proof.Proof.ReferenceIsCross
import Idealize.ShloMosaic.Adequacy
import Idealize.ShloMosaic.Init

noncomputable section

namespace Cert.Proof

open Idealize.ShloMosaic Idealize.ShloMosaic.TcCoe Idealize.SL.Sem

/-- The word-level kernel runs to the end without fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with what it says of the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation: there is nothing to preserve. -/
theorem preserves : Cert.preserves_Kernel_KernelIdeal := trivial

/-- From memories that agree on the arguments, the kernel ends with both results at `cross` of its arguments
    (KernelArrays) and the reference with both results at `cross` of its own (ReferenceIsCross), which are the same
    arguments. -/
theorem algebraic : Cert.algebraic_KernelIdeal_ReferenceIdeal := by
  intro m ρ m' ρ' _ hagree
  refine ⟨fun c => Cert.CrossSpec.cross (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)),
    fun c => Cert.CrossSpec.cross (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)),
    Cert.KernelIdeal.Arrays.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [Cert.ReferenceIdeal.Read.val_main_v11_eq, Cert.ReferenceIdeal.IsCross.first_eq,
      (hagree c).1, (hagree c).2.1, (hagree c).2.2.1, (hagree c).2.2.2.1, (hagree c).2.2.2.2.2.2.1]
  · rw [Cert.ReferenceIdeal.Read.val_main_v19_eq, Cert.ReferenceIdeal.IsCross.second_eq,
      (hagree c).1, (hagree c).2.1, (hagree c).2.2.2.2.1, (hagree c).2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
